-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S1024x1024 .f32 .bf16
  ∧ IdealRules.truncf_extf.Statement Cert.KernelIdeal.S1024x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x512 : Shape := ⟨2, ![8, 512]⟩
abbrev S1024x256 : Shape := ⟨2, ![1024, 256]⟩
abbrev S512x256 : Shape := ⟨2, ![512, 256]⟩
abbrev S256x1024 : Shape := ⟨2, ![256, 1024]⟩
abbrev S512x1024 : Shape := ⟨2, ![512, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x512 : S_.BroadcastsInDim S8x512 (![] : Fin 0 → Fin S8x512.rank)
  reducesTo_S8x512_S_d0_1 : S8x512.ReducesTo [0, 1] S_
  bcast_S_S1024x256 : S_.BroadcastsInDim S1024x256 (![] : Fin 0 → Fin S1024x256.rank)
  reducesTo_S1024x256_S_d0_1 : S1024x256.ReducesTo [0, 1] S_
  bcast_S_S512x256 : S_.BroadcastsInDim S512x256 (![] : Fin 0 → Fin S512x256.rank)
  reducesTo_S512x256_S_d0_1 : S512x256.ReducesTo [0, 1] S_
  bcast_S_S256x1024 : S_.BroadcastsInDim S256x1024 (![] : Fin 0 → Fin S256x1024.rank)
  reducesTo_S256x1024_S_d0_1 : S256x1024.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn_part2 {F : FTy → Type} [FloatOps F] (main_arg7 : FVec F S512x1024 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  main_v38

def fn_part1 {F : FTy → Type} [FloatOps F] (main_arg4 : FVec F S512x256 .f32) (main_arg5 : FVec F S256x1024 .f32) (main_arg6 : FVec F S512x1024 .f32) (main_arg7 : FVec F S512x1024 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S8x4096x1024 .f32) (main_arg1 : FVec F S8x512 .f32) (main_arg2 : FVec F S1024x256 .f32) (main_arg3 : FVec F S512x256 .f32) (main_arg4 : FVec F S512x256 .f32) (main_arg5 : FVec F S256x1024 .f32) (main_arg6 : FVec F S512x1024 .f32) (main_arg7 : FVec F S512x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_v13 main_v16
-- ==== Kernel.lean ====
abbrev S8x4096x1024 : Shape := ⟨3, ![8, 4096, 1024]⟩
abbrev S8x512 : Shape := ⟨2, ![8, 512]⟩
abbrev S1024x256 : Shape := ⟨2, ![1024, 256]⟩
abbrev S512x256 : Shape := ⟨2, ![512, 256]⟩
abbrev S256x1024 : Shape := ⟨2, ![256, 1024]⟩
abbrev S512x1024 : Shape := ⟨2, ![512, 1024]⟩
abbrev S8x256 : Shape := ⟨2, ![8, 256]⟩
abbrev S8x1024 : Shape := ⟨2, ![8, 1024]⟩
abbrev S1x1024x1024 : Shape := ⟨3, ![1, 1024, 1024]⟩
abbrev S1024x1024 : Shape := ⟨2, ![1024, 1024]⟩
abbrev S1024 : Shape := ⟨1, ![1024]⟩
abbrev S1024x1 : Shape := ⟨2, ![1024, 1]⟩
abbrev S1x256 : Shape := ⟨2, ![1, 256]⟩
abbrev S256 : Shape := ⟨1, ![256]⟩
abbrev S1x1024 : Shape := ⟨2, ![1, 1024]⟩

abbrev nBuf : Space → Nat
  | .hbm => 15
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x512, .f32⟩
  | .hbm, ⟨2, _⟩ => ⟨S1024x256, .f32⟩
  | .hbm, ⟨3, _⟩ => ⟨S512x256, .f32⟩
  | .hbm, ⟨4, _⟩ => ⟨S512x256, .f32⟩
  | .hbm, ⟨5, _⟩ => ⟨S256x1024, .f32⟩
  | .hbm, ⟨6, _⟩ => ⟨S512x1024, .f32⟩
  | .hbm, ⟨7, _⟩ => ⟨S512x1024, .f32⟩
  | .hbm, ⟨8, _⟩ => ⟨S8x256, .f32⟩
  | .hbm, ⟨9, _⟩ => ⟨S8x256, .f32⟩
  | .hbm, ⟨10, _⟩ => ⟨S8x1024, .f32⟩
  | .hbm, ⟨11, _⟩ => ⟨S8x1024, .f32⟩
  | .hbm, ⟨12, _⟩ => ⟨S1024x256, .bf16⟩
  | .hbm, ⟨13, _⟩ => ⟨S256x1024, .bf16⟩
  | .hbm, ⟨14, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x256, .bf16⟩
  | .local _ .vmem, ⟨3, _⟩ => ⟨S256x1024, .bf16⟩
  | .local _ .vmem, ⟨4, _⟩ => ⟨S8x256, .f32⟩
  | .local _ .vmem, ⟨5, _⟩ => ⟨S8x256, .f32⟩
  | .local _ .vmem, ⟨6, _⟩ => ⟨S8x1024, .f32⟩
  | .local _ .vmem, ⟨7, _⟩ => ⟨S8x1024, .f32⟩
  | .local _ .vmem, ⟨8, _⟩ => ⟨S1x1024x1024, .f32⟩
  | .local _ .vmem, ⟨9, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let arg0 : BitVec 32 := BitVec.ofNat 32 (i 0).val
  let v13 : Index := Scalar.indexCast arg0
  let c0_6 : Index := 0#32
  ![v13.toNat, 0]
def k0_off2 (i : grid0.Coords) : Fin 2 → Nat :=
  let arg0 : BitVec 32 := BitVec.ofNat 32 (i 0).val
  let v40 : Index := Scalar.indexCast arg0
  let c0_14 : Index := 0#32
  ![v40.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x1024_S1024 : S1024x1024.Reduces [1] S1024
  shapeCasts_S1024_S1024x1 : S1024.ShapeCasts S1024x1
  h_S1x256 : 0 < S1x256.numel
  shapeCasts_S1x256_S256 : S1x256.ShapeCasts S256
  shapeCasts_S256_S1x256 : S256.ShapeCasts S1x256
  broadcasts_S1x256_S1024x256 : S1x256.Broadcasts S1024x256
  broadcasts_S1024x1_S1024x256 : S1024x1.Broadcasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S1024x256_S1024 : S1024x256.Reduces [1] S1024
  h_S1x1024 : 0 < S1x1024.numel
  shapeCasts_S1x1024_S1024 : S1x1024.ShapeCasts S1024
  shapeCasts_S1024_S1x1024 : S1024.ShapeCasts S1x1024
  broadcasts_S1x1024_S1024x1024 : S1x1024.Broadcasts S1024x1024
  broadcasts_S1024x1_S1024x1024 : S1024x1.Broadcasts S1024x1024
  shapeCasts_S1024x1024_S1x1024x1024 : S1024x1024.ShapeCasts S1x1024x1024
  dot_S8x512_S512x256_S8x256_1_0_0_1_n_n_wf : DotDims.WF S8x512 S512x256 S8x256 [1] [0] [0] [1] [] []
  dot_S8x512_S512x1024_S8x1024_1_0_0_1_n_n_wf : DotDims.WF S8x512 S512x1024 S8x1024 [1] [0] [0] [1] [] []
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  k0_off1_inb : ∀ i : grid0.Coords, ∀ a, (k0_off1 i) a + S1x256.size a ≤ S8x256.size a
  k0_off2_inb : ∀ i : grid0.Coords, ∀ a, (k0_off2 i) a + S1x1024.size a ≤ S8x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x256.size a
  hwx0_3 : ∀ i : grid0.Coords, EltTy.bits .f32 = 32 ∨ (Rect.block (s := S8x256) S8x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S8x256.size a
  hwx0_4 : ∀ i : grid0.Coords, EltTy.bits .f32 = 32 ∨ (Rect.block (s := S8x256) S8x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S8x1024.size a
  hwx0_5 : ∀ i : grid0.Coords, EltTy.bits .f32 = 32 ∨ (Rect.block (s := S8x1024) S8x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1024.size a ≤ S8x1024.size a
  hwx0_6 : ∀ i : grid0.Coords, EltTy.bits .f32 = 32 ∨ (Rect.block (s := S8x1024) S8x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x1024.size a ≤ S8x4096x1024.size a
  hwx0_7 : ∀ i : grid0.Coords, EltTy.bits .f32 = 32 ∨ (Rect.block (s := S8x4096x1024) S1x1024x1024.size (cc0_transform_7 i) (hinb0_7 i)).WholeWords (EltTy.packing .f32)

variable [Facts₀]

def dot_S8x512_S512x256_S8x256_1_0_0_1_n_n : DotDims S8x512 S512x256 S8x256 where
  lhsContracting := [1]
  rhsContracting := [0]
  lhsNonContracting := [0]
  rhsNonContracting := [1]
  lhsBatch := []
  rhsBatch := []
  wf := dot_S8x512_S512x256_S8x256_1_0_0_1_n_n_wf
def dot_S8x512_S512x1024_S8x1024_1_0_0_1_n_n : DotDims S8x512 S512x1024 S8x1024 where
  lhsContracting := [1]
  rhsContracting := [0]
  lhsNonContracting := [0]
  rhsNonContracting := [1]
  lhsBatch := []
  rhsBatch := []
  wf := dot_S8x512_S512x1024_S8x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S8x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where
  halias0_7 : Pipeline.Aliased win0 0 7

variable [Facts]
-- ==== ReferenceIdeal.lean ====
abbrev S8x4096x1024 : Shape := ⟨3, ![8, 4096, 1024]⟩
abbrev S8x512 : Shape := ⟨2, ![8, 512]⟩
abbrev S1024x256 : Shape := ⟨2, ![1024, 256]⟩
abbrev S512x256 : Shape := ⟨2, ![512, 256]⟩
abbrev S256x1024 : Shape := ⟨2, ![256, 1024]⟩
abbrev S512x1024 : Shape := ⟨2, ![512, 1024]⟩
abbrev S8x256 : Shape := ⟨2, ![8, 256]⟩
abbrev S8x1024 : Shape := ⟨2, ![8, 1024]⟩
abbrev S1x1024x256 : Shape := ⟨3, ![1, 1024, 256]⟩
abbrev S8x1x256 : Shape := ⟨3, ![8, 1, 256]⟩
abbrev S8x1024x256 : Shape := ⟨3, ![8, 1024, 256]⟩
abbrev S8x4096x256 : Shape := ⟨3, ![8, 4096, 256]⟩
abbrev S_ : Shape := ⟨0, ![]⟩
abbrev S1x256x1024 : Shape := ⟨3, ![1, 256, 1024]⟩
abbrev S8x1x1024 : Shape := ⟨3, ![8, 1, 1024]⟩
abbrev S8x256x1024 : Shape := ⟨3, ![8, 256, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x512, .f32⟩
  | .hbm, ⟨2, _⟩ => ⟨S1024x256, .f32⟩
  | .hbm, ⟨3, _⟩ => ⟨S512x256, .f32⟩
  | .hbm, ⟨4, _⟩ => ⟨S512x256, .f32⟩
  | .hbm, ⟨5, _⟩ => ⟨S256x1024, .f32⟩
  | .hbm, ⟨6, _⟩ => ⟨S512x1024, .f32⟩
  | .hbm, ⟨7, _⟩ => ⟨S512x1024, .f32⟩
  | .hbm, ⟨8, _⟩ => ⟨S8x256, .f32⟩
  | .hbm, ⟨9, _⟩ => ⟨S8x256, .f32⟩
  | .hbm, ⟨10, _⟩ => ⟨S8x1024, .f32⟩
  | .hbm, ⟨11, _⟩ => ⟨S8x1024, .f32⟩
  | .hbm, ⟨12, _⟩ => ⟨S1x1024x256, .f32⟩
  | .hbm, ⟨13, _⟩ => ⟨S8x1x256, .f32⟩
  | .hbm, ⟨14, _⟩ => ⟨S8x1024x256, .f32⟩
  | .hbm, ⟨15, _⟩ => ⟨S8x1024x256, .f32⟩
  | .hbm, ⟨16, _⟩ => ⟨S8x1024x256, .f32⟩
  | .hbm, ⟨17, _⟩ => ⟨S8x1x256, .f32⟩
  | .hbm, ⟨18, _⟩ => ⟨S8x1024x256, .f32⟩
  | .hbm, ⟨19, _⟩ => ⟨S8x1024x256, .f32⟩
  | .hbm, ⟨20, _⟩ => ⟨S8x4096x256, .f32⟩
  | .hbm, ⟨21, _⟩ => ⟨S_, .f32⟩
  | .hbm, ⟨22, _⟩ => ⟨S8x4096x256, .f32⟩
  | .hbm, ⟨23, _⟩ => ⟨S8x4096x256, .f32⟩
  | .hbm, ⟨24, _⟩ => ⟨S1x256x1024, .f32⟩
  | .hbm, ⟨25, _⟩ => ⟨S8x1x1024, .f32⟩
  | .hbm, ⟨26, _⟩ => ⟨S8x256x1024, .f32⟩
  | .hbm, ⟨27, _⟩ => ⟨S8x256x1024, .f32⟩
  | .hbm, ⟨28, _⟩ => ⟨S8x256x1024, .f32⟩
  | .hbm, ⟨29, _⟩ => ⟨S8x1x1024, .f32⟩
  | .hbm, ⟨30, _⟩ => ⟨S8x256x1024, .f32⟩
  | .hbm, ⟨31, _⟩ => ⟨S8x256x1024, .f32⟩
  | .hbm, ⟨32, _⟩ => ⟨S8x4096x1024, .f32⟩
  | .hbm, ⟨33, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S1024x256_S1x1024x256_1_2 : S1024x256.BroadcastsInDim S1x1024x256 (![1, 2] : Fin 2 → Fin S1x1024x256.rank)
  bcast_S8x256_S8x1x256_0_2 : S8x256.BroadcastsInDim S8x1x256 (![0, 2] : Fin 2 → Fin S8x1x256.rank)
  bcast_S1x1024x256_S8x1024x256_0_1_2 : S1x1024x256.BroadcastsInDim S8x1024x256 (![0, 1, 2] : Fin 3 → Fin S8x1024x256.rank)
  bcast_S8x1x256_S8x1024x256_0_1_2 : S8x1x256.BroadcastsInDim S8x1024x256 (![0, 1, 2] : Fin 3 → Fin S8x1024x256.rank)
  bcast_S_S8x4096x256 : S_.BroadcastsInDim S8x4096x256 (![] : Fin 0 → Fin S8x4096x256.rank)
  bcast_S256x1024_S1x256x1024_1_2 : S256x1024.BroadcastsInDim S1x256x1024 (![1, 2] : Fin 2 → Fin S1x256x1024.rank)
  bcast_S8x1024_S8x1x1024_0_2 : S8x1024.BroadcastsInDim S8x1x1024 (![0, 2] : Fin 2 → Fin S8x1x1024.rank)
  bcast_S1x256x1024_S8x256x1024_0_1_2 : S1x256x1024.BroadcastsInDim S8x256x1024 (![0, 1, 2] : Fin 3 → Fin S8x256x1024.rank)
  bcast_S8x1x1024_S8x256x1024_0_1_2 : S8x1x1024.BroadcastsInDim S8x256x1024 (![0, 1, 2] : Fin 3 → Fin S8x256x1024.rank)
  dot_S8x512_S512x256_S8x256_1_0_0_1_n_n_wf : DotDims.WF S8x512 S512x256 S8x256 [1] [0] [0] [1] [] []
  dot_S8x512_S512x1024_S8x1024_1_0_0_1_n_n_wf : DotDims.WF S8x512 S512x1024 S8x1024 [1] [0] [0] [1] [] []
  dot_S8x4096x1024_S8x1024x256_S8x4096x256_2_1_1_2_0_0_wf : DotDims.WF S8x4096x1024 S8x1024x256 S8x4096x256 [2] [1] [1] [2] [0] [0]
  dot_S8x4096x256_S8x256x1024_S8x4096x1024_2_1_1_2_0_0_wf : DotDims.WF S8x4096x256 S8x256x1024 S8x4096x1024 [2] [1] [1] [2] [0] [0]

variable [Facts₀]

def dot_S8x512_S512x256_S8x256_1_0_0_1_n_n : DotDims S8x512 S512x256 S8x256 where
  lhsContracting := [1]
  rhsContracting := [0]
  lhsNonContracting := [0]
  rhsNonContracting := [1]
  lhsBatch := []
  rhsBatch := []
  wf := dot_S8x512_S512x256_S8x256_1_0_0_1_n_n_wf
def dot_S8x512_S512x1024_S8x1024_1_0_0_1_n_n : DotDims S8x512 S512x1024 S8x1024 where
  lhsContracting := [1]
  rhsContracting := [0]
  lhsNonContracting := [0]
  rhsNonContracting := [1]
  lhsBatch := []
  rhsBatch := []
  wf := dot_S8x512_S512x1024_S8x1024_1_0_0_1_n_n_wf
def dot_S8x4096x1024_S8x1024x256_S8x4096x256_2_1_1_2_0_0 : DotDims S8x4096x1024 S8x1024x256 S8x4096x256 where
  lhsContracting := [2]
  rhsContracting := [1]
  lhsNonContracting := [1]
  rhsNonContracting := [2]
  lhsBatch := [0]
  rhsBatch := [0]
  wf := dot_S8x4096x1024_S8x1024x256_S8x4096x256_2_1_1_2_0_0_wf
def dot_S8x4096x256_S8x256x1024_S8x4096x1024_2_1_1_2_0_0 : DotDims S8x4096x256 S8x256x1024 S8x4096x1024 where
  lhsContracting := [2]
  rhsContracting := [1]
  lhsNonContracting := [1]
  rhsNonContracting := [2]
  lhsBatch := [0]
  rhsBatch := [0]
  wf := dot_S8x4096x256_S8x256x1024_S8x4096x1024_2_1_1_2_0_0_wf

class Facts : Prop extends Facts₀ where

variable [Facts]
-- ==== Proof.LibPlainDot.lean ====
import Idealize.ShloMosaic.Lib.ValueIdx
import Idealize.ShloMosaic.Lib.Pipeline.Value
import Idealize.ShloMosaic.PureOps.Ideal.Laws

/-!
A plain matrix product `[M, K] × [K, N]` read at an index, on the extended reals: the kernel's `tpu.matmul` into a
zero accumulator and the host's `dot_general` are both `∑ k, x (p, k) · W (k, q)` at `(p, q)`, with the sum
over the literal `Fin K`. Stated for the dimension numbers `DotDims.plain M K N`, which every product of the two
programs has.
-/

noncomputable section

namespace Idealize.ShloMosaic.PlainDot

open Idealize.ShloMosaic Idealize.ShloMosaic.ValueIdx

variable {φ₁ φ₂ : FTy}

theorem lhs_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem rhs_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product, over the literal `Fin K`. -/
theorem contr_sum (M K N : Nat) (x : (⟨2, ![M, K]⟩ : Shape).Idx → EReal) (W : (⟨2, ![K, N]⟩ : Shape).Idx → EReal)
    (p : Fin M) (q : Fin N) :
    ∑ k : (DotDims.plain M K N).contr.Idx,
        x ((DotDims.plain M K N).lhsIdx (ix2 p q) k) * W ((DotDims.plain M K N).rhsIdx (ix2 p q) k)
      = ∑ k : Fin K, x (ix2 p k) * W (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact rhs_col M K N _ _)
  rw [el, er]

/-- A `tpu.matmul` into the zero accumulator, at `(p, q)`. -/
theorem matmul_zero_apply (M K N : Nat) (prec : Option ContractPrecision)
    (x : FVec Ideal ⟨2, ![M, K]⟩ φ₁) (W : FVec Ideal ⟨2, ![K, N]⟩ φ₂) (p : Fin M) (q : Fin N) :
    FloatOps.matmul (DotDims.plain M K N) prec x W (constant ⟨2, ![M, N]⟩ .f32 0x00000000#32) (ix2 p q)
      = ∑ k : Fin K, x (ix2 p k) * W (ix2 k q) := by
  rw [Ideal.matmul_constant_zero_apply]
  exact contr_sum M K N x W p q

/-- The host's `dot_general`, at `(p, q)`. -/
theorem dotGeneral_apply (M K N : Nat) (prec : Option ContractPrecision) (sched : HostSchedule)
    (x : FVec Ideal ⟨2, ![M, K]⟩ φ₁) (W : FVec Ideal ⟨2, ![K, N]⟩ φ₂) (p : Fin M) (q : Fin N) :
    FloatOps.dotGeneral (DotDims.plain M K N) prec sched x W (ix2 p q) = ∑ k : Fin K, x (ix2 p k) * W (ix2 k q) := by
  rw [Ideal.dotGeneral_apply]
  exact contr_sum M K N x W p q

end Idealize.ShloMosaic.PlainDot

end
-- ==== Proof.LibColumn.lean ====
import Idealize.ShloMosaic.Lib.ValueLayout

/-!
A column of per-row values read at an index: a vector `[a]` viewed as a one-column matrix `[a, 1]`, and a one-column
matrix `[a, 1]` repeated along its row to `[a, b]` — the two layout steps between a row reduction that keeps its
axis and the matrix it is then combined with. General in the extents.
-/

namespace Idealize.ShloMosaic.ValueIdx

open Idealize.ShloMosaic

variable {α : Type}

/-- An `[a]` vector cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.LibRowScale.lean ====
import Idealize.ShloMosaic.Lib.ValueLayout
import Idealize.ShloMosaic.PureOps.Ideal.Laws
import proofs.«150275_j43611097924302_2_alg».proof.Proof.LibColumn

/-!
Two layout chains around a matrix, read at an index, general in the extents.

* A one-row matrix `[1, b]` flattened to `[b]`, viewed again as `[1, b]` and repeated down `a` rows: at `(p, c)` it
  reads the row's entry `c` (a per-column scale or shift applied to every row).
* The sum of a matrix `[a, n]` along its rows, kept as a column `[a, 1]` and repeated across `b` columns: at `(p, c)`
  it is the sum of row `p` (a row sum that keeps its axis, combined with a matrix).
-/

namespace Idealize.ShloMosaic.ValueIdx

open Idealize.ShloMosaic

/-- A `[1, b]` row cast to `[b]`, back to `[1, b]` and broadcast to `[a, b]` reads, at `(p, c)`, the row at `c`. -/
theorem broadcastTo_row_roundtrip_apply {α : Type} {a b : ℕ} (r : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ r h1) h2) hb (ix2 p c) = r (ix2 (0 : Fin 1) c) := by
  rw [broadcastTo_1b_ab_apply, shapeCast_shapeCast]

/-- The row sums of an `[a, n]` matrix at the ideal values, kept as a column and broadcast to `[a, b]`: at `(p, c)` the
    sum of row `p`. -/
theorem broadcastTo_rowsum_apply {a n b : ℕ} (src : FVec Ideal ⟨2, ![a, n]⟩ .f32)
    (hred : (⟨2, ![a, n]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ src 0x00000000#32 hred hφ hacc) hc) hb
        (ix2 p c) = ∑ k : Fin n, src (ix2 p k) := by
  rw [broadcastTo_a1_ab_apply, shapeCast_a_a1_apply]
  refine (Ideal.multiReduction_add_single src 0x00000000#32 hred hφ hacc (ix1 p)).trans ?_
  refine Finset.sum_congr rfl fun k _ => congrArg src (funext fun ax => ?_)
  match ax with
  | ⟨0, _⟩ => rfl
  | ⟨1, _⟩ => rfl

end Idealize.ShloMosaic.ValueIdx
-- ==== Proof.RealLaws.lean ====
/-
  The conditional adapter's two arrangements, entry by entry, on the extended reals.

  One output entry depends on a row `x` of the hidden states (indexed by `D`), the shared down weight `wd`, the
  example's down scale and shift `dg`, `db` (indexed by `H`), a column `wu` of the shared up weight and the example's
  up scale and shift `ug`, `ub` at that column.

  * The reference forms the per-example weights first: `a h = max (∑ d, x d · (wd d h · dg h + db h)) 0` and the
    entry is `∑ h, a h · (wu h · ug + ub) + x₀`.
  * The kernel multiplies by the shared weights and applies scale and shift afterwards, and it feeds each product
    twice, with the operand and with the operand minus itself:
    `a h = max (dg h · (∑ d, x d · wd d h + ∑ d, (x d - x d) · wd d h) + db h · ∑ d, x d) 0` and
    `ug · (∑ h, a h · wu h + ∑ h, (a h - a h) · wu h) + ub · ∑ h, a h + x₀`.

  On real numbers `x - x = 0` and a product distributes over a sum, so the two agree; on the extended reals neither
  holds at an infinity, so the statement is for entries that are real numbers.
-/
import Idealize.ShloMosaic.PureOps.Ideal.Laws

noncomputable section

namespace Cert.RealLaws

open Finset

/-- The inclusion of the reals in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- … and with the maximum of two numbers. -/
theorem coe_max (a b : ℝ) : ((max a b : ℝ) : EReal) = max (a : EReal) (b : EReal) :=
  EReal.coe_strictMono.monotone.map_max

variable {D H : Type} [Fintype D] [Fintype H]

/-- The kernel's arrangement of one scaled and shifted product, on real entries, is a real number: the joint sum. -/
theorem split_form (x w : D → ℝ) (g b : ℝ) :
    (g : EReal) * (∑ d, (x d : EReal) * (w d : EReal) + ∑ d, ((x d : EReal) - (x d : EReal)) * (w d : EReal))
        + (b : EReal) * ∑ d, (x d : EReal)
      = ((∑ d, x d * (w d * g + b) : ℝ) : EReal) := by
  simp only [← EReal.coe_sub, ← EReal.coe_mul, ← coe_sum, ← EReal.coe_add]
  refine congrArg _ ?_
  simp only [sub_self, zero_mul, Finset.sum_const_zero, add_zero, Finset.mul_sum, ← Finset.sum_add_distrib]
  exact Finset.sum_congr rfl fun d _ => by ring

/-- The reference's arrangement of the same product, on real entries, is the same real number. -/
theorem joint_form (x w : D → ℝ) (g b : ℝ) :
    ∑ d, (x d : EReal) * ((w d : EReal) * (g : EReal) + (b : EReal)) = ((∑ d, x d * (w d * g + b) : ℝ) : EReal) := by
  simp only [← EReal.coe_mul, ← EReal.coe_add, ← coe_sum]

/-- One entry of the result as the reference arranges it. -/
def refEntry (x : D → EReal) (wd : D → H → EReal) (dg db wu : H → EReal) (ug ub x₀ : EReal) : EReal :=
  (∑ h, max (∑ d, x d * (wd d h * dg h + db h)) 0 * (wu h * ug + ub)) + x₀

/-- The hidden activation as the kernel arranges it. -/
def kerAct (x : D → EReal) (wd : D → H → EReal) (dg db : H → EReal) (h : H) : EReal :=
  max (dg h * (∑ d, x d * wd d h + ∑ d, (x d - x d) * wd d h) + db h * ∑ d, x d) 0

/-- One entry of the result as the kernel arranges it. -/
def kerEntry (x : D → EReal) (wd : D → H → EReal) (dg db wu : H → EReal) (ug ub x₀ : EReal) : EReal :=
  (ug * (∑ h, kerAct x wd dg db h * wu h + ∑ h, (kerAct x wd dg db h - kerAct x wd dg db h) * wu h)
      + ub * ∑ h, kerAct x wd dg db h) + x₀

/-- On real entries the kernel's arrangement of an entry is the reference's. -/
theorem kerEntry_eq_refEntry (x : D → ℝ) (wd : D → H → ℝ) (dg db wu : H → ℝ) (ug ub : ℝ) (x₀ : EReal) :
    kerEntry (fun d => (x d : EReal)) (fun d h => (wd d h : EReal)) (fun h => (dg h : EReal)) (fun h => (db h : EReal))
        (fun h => (wu h : EReal)) (ug : EReal) (ub : EReal) x₀
      = refEntry (fun d => (x d : EReal)) (fun d h => (wd d h : EReal)) (fun h => (dg h : EReal)) (fun h => (db h : EReal))
        (fun h => (wu h : EReal)) (ug : EReal) (ub : EReal) x₀ := by
  have hact : ∀ h, kerAct (fun d => (x d : EReal)) (fun d h => (wd d h : EReal)) (fun h => (dg h : EReal))
      (fun h => (db h : EReal)) h = ((max (∑ d, x d * (wd d h * dg h + db h)) 0 : ℝ) : EReal) := fun h => by
    unfold kerAct
    rw [split_form x (fun d => wd d h) (dg h) (db h), coe_max, EReal.coe_zero]
  have href : ∀ h, max (∑ d, (x d : EReal) * ((wd d h : EReal) * (dg h : EReal) + (db h : EReal))) 0
      = ((max (∑ d, x d * (wd d h * dg h + db h)) 0 : ℝ) : EReal) := fun h => by
    rw [joint_form x (fun d => wd d h) (dg h) (db h), coe_max, EReal.coe_zero]
  unfold kerEntry refEntry
  simp only [hact, href]
  rw [split_form (fun h => max (∑ d, x d * (wd d h * dg h + db h)) 0) wu ug ub,
    joint_form (fun h => max (∑ d, x d * (wd d h * dg h + db h)) 0) wu ug ub]

end Cert.RealLaws

end
-- ==== Proof.KernelPay.lean ====
/-
  The kernel body's arithmetic, read entry by entry at the ideal values.

  The body receives a [1, 1024, 1024] tile `X` of the hidden states, the two shared weights `W1` [1024, 256] and
  `W2` [256, 1024], and one row each of the four coefficient arrays (`r3`, `r4` [1, 256]; `r5`, `r6` [1, 1024]). Its
  stored tile at `(0, p, d)` is the kernel's arrangement of an adapter entry (`RealLaws.kerEntry`) of row `p` of
  the tile: the matrix products are sums over the contracted axis, the row sums that keep their axis are sums over
  the row, the rows of coefficients are repeated down the tile, and the changes of float format are the identity.
-/
import proofs.«150275_j43611097924302_2_alg».proof.Proof.Gen.KernelIdeal.Skeleton
import proofs.«150275_j43611097924302_2_alg».proof.Proof.LibPlainDot
import proofs.«150275_j43611097924302_2_alg».proof.Proof.LibRowScale
import proofs.«150275_j43611097924302_2_alg».proof.Proof.RealLaws

noncomputable section
namespace Cert.KernelIdeal.Pay
open Cert.KernelIdeal Cert.KernelIdeal.Gen Idealize.ShloMosaic Idealize.ShloMosaic.ValueIdx Cert.RealLaws
variable [Facts]

theorem dot_down : dot_S1024x1024_S1024x256_S1024x256_1_0_0_1_n_n = DotDims.plain 1024 1024 256 := rfl
theorem dot_up : dot_S1024x256_S256x1024_S1024x1024_1_0_0_1_n_n = DotDims.plain 1024 256 1024 := rfl

theorem pay3_entry (X : FVec Ideal S1x1024x1024 .f32) (W1 : FVec Ideal S1024x256 .bf16) (r3 r4 : FVec Ideal S1x256 .f32) (p : Fin 1024) (h : Fin 256) :
    k0_pay3 (F := Ideal) X W1 r3 r4 (ix2 p h)
      = kerAct (D := Fin 1024) (H := Fin 256) (fun k => X (ix3 (0 : Fin 1) p k)) (fun k h => W1 (ix2 k h)) (fun h => r3 (ix2 (0 : Fin 1) h)) (fun h => r4 (ix2 (0 : Fin 1) h)) h := by
  unfold k0_pay3 k0_pay2 kerAct
  simp only [maximumf_apply, addf_apply, mulf_apply, broadcast_apply, broadcastTo_row_roundtrip_apply, broadcastTo_rowsum_apply, dot_down, matmul, PlainDot.matmul_zero_apply, truncf_apply, subf_apply, shapeCast_1ab_ab_apply, shapeCast_self]
  have e := broadcastTo_rowsum_apply (a := 1024) (n := 1024) (b := 256) (shapeCast S1024x1024 X shapeCasts_S1x1024x1024_S1024x1024)
    reduces_S1024x1024_S1024 (.inl rfl) rfl shapeCasts_S1024_S1024x1 broadcasts_S1024x1_S1024x256 p h
  rw [e]
  simp only [shapeCast_1ab_ab_apply, Ideal.ofBits_def, Ideal.ofBits_zero_f32]

/-- The activation's row sum kept as a column: entry `(p, 0)` is the sum over the hidden axis of the activation. -/
theorem pay5_entry (X : FVec Ideal S1x1024x1024 .f32) (W1 : FVec Ideal S1024x256 .bf16) (r3 r4 : FVec Ideal S1x256 .f32) (p : Fin 1024) :
    k0_pay5 (F := Ideal) X W1 r3 r4 (ix2 p (0 : Fin 1)) = ∑ h : Fin 256, k0_pay3 (F := Ideal) X W1 r3 r4 (ix2 p h) := by
  unfold k0_pay5
  rw [shapeCast_a_a1_apply]
  refine (Ideal.multiReduction_add_single (k0_pay3 (F := Ideal) X W1 r3 r4) 0x00000000#32 reduces_S1024x256_S1024 (.inl rfl) rfl (ix1 p)).trans ?_
  refine Finset.sum_congr rfl fun k _ => congrArg _ (funext fun ax => ?_)
  match ax with
  | ⟨0, _⟩ => rfl
  | ⟨1, _⟩ => rfl

/-- The up product fed twice, with the activation and with the activation minus itself. -/
theorem pay4_entry (X : FVec Ideal S1x1024x1024 .f32) (W1 : FVec Ideal S1024x256 .bf16) (r3 r4 : FVec Ideal S1x256 .f32)
    (W2 : FVec Ideal S256x1024 .bf16) (p d : Fin 1024) :
    k0_pay4 (F := Ideal) X W1 r3 r4 W2 (ix2 p d)
      = ∑ h : Fin 256, k0_pay3 (F := Ideal) X W1 r3 r4 (ix2 p h) * W2 (ix2 h d)
        + ∑ h : Fin 256, (k0_pay3 (F := Ideal) X W1 r3 r4 (ix2 p h) - k0_pay3 (F := Ideal) X W1 r3 r4 (ix2 p h)) * W2 (ix2 h d) := by
  unfold k0_pay4
  simp only [addf_apply, dot_up, matmul, PlainDot.matmul_zero_apply, truncf_apply, subf_apply, shapeCast_self]

/-- The stored tile from its three intermediate values and the two coefficient rows. -/
theorem pay1_entry (v1 v37 : FVec Ideal S1024x1024 .f32) (v39 : FVec Ideal S1024x1 .f32) (r5 r6 : FVec Ideal S1x1024 .f32) (p d : Fin 1024) :
    k0_pay1 (F := Ideal) v1 v37 v39 r5 r6 (ix3 (0 : Fin 1) p d)
      = (r5 (ix2 (0 : Fin 1) d) * v37 (ix2 p d) + r6 (ix2 (0 : Fin 1) d) * v39 (ix2 p (0 : Fin 1))) + v1 (ix2 p d) := by
  unfold k0_pay1
  rw [shapeCast_ab_1ab_apply]
  simp only [addf_apply, mulf_apply, broadcastTo_row_roundtrip_apply, broadcastTo_a1_ab_apply]

/-- The body's stored tile at `(0, p, d)` is the kernel's arrangement of the adapter entry of row `p`, column `d`. -/
theorem tile_entry (X : FVec Ideal S1x1024x1024 .f32) (W1 : FVec Ideal S1024x256 .bf16) (W2 : FVec Ideal S256x1024 .bf16)
    (r3 r4 : FVec Ideal S1x256 .f32) (r5 r6 : FVec Ideal S1x1024 .f32) (p d : Fin 1024) :
    k0_pay1 (F := Ideal) (k0_pay2 X) (k0_pay4 X W1 r3 r4 W2) (k0_pay5 X W1 r3 r4) r5 r6 (ix3 (0 : Fin 1) p d)
      = kerEntry (D := Fin 1024) (H := Fin 256) (fun k => X (ix3 (0 : Fin 1) p k)) (fun k h => W1 (ix2 k h))
          (fun h => r3 (ix2 (0 : Fin 1) h)) (fun h => r4 (ix2 (0 : Fin 1) h)) (fun h => W2 (ix2 h d))
          (r5 (ix2 (0 : Fin 1) d)) (r6 (ix2 (0 : Fin 1) d)) (X (ix3 (0 : Fin 1) p d)) := by
  rw [pay1_entry, pay4_entry, pay5_entry]
  unfold kerEntry k0_pay2
  simp only [pay3_entry, shapeCast_1ab_ab_apply]

end Cert.KernelIdeal.Pay
end
-- ==== Proof.Spec.lean ====
/-
  The conditional adapter as ONE function of its arrays, entry by entry, in the reference's arrangement.

  `x` is the hidden states [8, 4096, 1024]; `wd` [1024, 256] and `wu` [256, 1024] the shared down and up weights;
  `dg`, `db` [8, 256] and `ug`, `ub` [8, 1024] the per-example scales and shifts (the conditions times the four
  modulation matrices). Entry `(b, s, d)` of the result reads row `(b, s)` of `x`, row `b` of the four coefficient
  arrays, all of `wd` and column `d` of `wu`:
    `∑ h, max (∑ k, x (b, s, k) · (wd (k, h) · dg (b, h) + db (b, h))) 0 · (wu (h, d) · ug (b, d) + ub (b, d)) + x (b, s, d)`.
-/
import Idealize.ShloMosaic.Lib.ValueIdx
import proofs.«150275_j43611097924302_2_alg».proof.Proof.RealLaws

noncomputable section

namespace Cert.Spec

open Idealize.ShloMosaic Idealize.ShloMosaic.ValueIdx

/-- Entry `(b, s, d)` of the adapter's result. -/
def entry (x : (⟨3, ![8, 4096, 1024]⟩ : Shape).Idx → EReal) (wd : (⟨2, ![1024, 256]⟩ : Shape).Idx → EReal)
    (wu : (⟨2, ![256, 1024]⟩ : Shape).Idx → EReal) (dg db : (⟨2, ![8, 256]⟩ : Shape).Idx → EReal)
    (ug ub : (⟨2, ![8, 1024]⟩ : Shape).Idx → EReal) (b : Fin 8) (s : Fin 4096) (d : Fin 1024) : EReal :=
  Cert.RealLaws.refEntry (D := Fin 1024) (H := Fin 256) (fun k => x (ix3 b s k)) (fun k h => wd (ix2 k h))
    (fun h => dg (ix2 b h)) (fun h => db (ix2 b h)) (fun h => wu (ix2 h d)) (ug (ix2 b d)) (ub (ix2 b d)) (x (ix3 b s d))

/-- The adapter's result array. -/
def adapter (x : (⟨3, ![8, 4096, 1024]⟩ : Shape).Idx → EReal) (wd : (⟨2, ![1024, 256]⟩ : Shape).Idx → EReal)
    (wu : (⟨2, ![256, 1024]⟩ : Shape).Idx → EReal) (dg db : (⟨2, ![8, 256]⟩ : Shape).Idx → EReal)
    (ug ub : (⟨2, ![8, 1024]⟩ : Shape).Idx → EReal) : (⟨3, ![8, 4096, 1024]⟩ : Shape).Idx → EReal :=
  fun i => entry x wd wu dg db ug ub (i 0) (i 1) (i 2)

theorem adapter_apply (x : (⟨3, ![8, 4096, 1024]⟩ : Shape).Idx → EReal) (wd : (⟨2, ![1024, 256]⟩ : Shape).Idx → EReal)
    (wu : (⟨2, ![256, 1024]⟩ : Shape).Idx → EReal) (dg db : (⟨2, ![8, 256]⟩ : Shape).Idx → EReal)
    (ug ub : (⟨2, ![8, 1024]⟩ : Shape).Idx → EReal) (b : Fin 8) (s : Fin 4096) (d : Fin 1024) :
    adapter x wd wu dg db ug ub (ix3 b s d) = entry x wd wu dg db ug ub b s d := rfl

/-- An array all of whose entries are real numbers. -/
def IsReal {S : Shape} (a : S.Idx → EReal) : Prop := ∃ r : S.Idx → ℝ, a = fun i => (r i : EReal)

end Cert.Spec

end
-- ==== Proof.KernelTile.lean ====
/-
  The body's stored tile against the adapter: when the body's loaded values are the rows of real-valued arrays that
  the adapter entry `(b, s, d)` reads — row `(b, s)` of the hidden states, the two shared weights, row `b` of the four
  coefficient arrays — the stored tile's entry `(0, p, d)` IS that adapter entry. This is where the two arrangements
  meet (`RealLaws.kerEntry_eq_refEntry`), and the one place the entries have to be real numbers.
-/
import proofs.«150275_j43611097924302_2_alg».proof.Proof.KernelPay
import proofs.«150275_j43611097924302_2_alg».proof.Proof.Spec

noncomputable section

namespace Cert.KernelIdeal.Pay

open Cert.KernelIdeal Cert.KernelIdeal.Gen Idealize.ShloMosaic Idealize.ShloMosaic.ValueIdx Cert.RealLaws Cert.Spec

variable [Facts]

theorem tile_is_adapter (A0 : (⟨3, ![8, 4096, 1024]⟩ : Shape).Idx → EReal) (A4 : (⟨2, ![1024, 256]⟩ : Shape).Idx → EReal)
    (A5 : (⟨2, ![256, 1024]⟩ : Shape).Idx → EReal) (B0 B1 : (⟨2, ![8, 256]⟩ : Shape).Idx → EReal)
    (B2 B3 : (⟨2, ![8, 1024]⟩ : Shape).Idx → EReal)
    (h0 : IsReal (S := ⟨3, ![8, 4096, 1024]⟩) A0) (h4 : IsReal (S := ⟨2, ![1024, 256]⟩) A4) (h5 : IsReal (S := ⟨2, ![256, 1024]⟩) A5)
    (g0 : IsReal (S := ⟨2, ![8, 256]⟩) B0) (g1 : IsReal (S := ⟨2, ![8, 256]⟩) B1)
    (g2 : IsReal (S := ⟨2, ![8, 1024]⟩) B2) (g3 : IsReal (S := ⟨2, ![8, 1024]⟩) B3)
    (X : FVec Ideal S1x1024x1024 .f32) (W1 : FVec Ideal S1024x256 .bf16) (W2 : FVec Ideal S256x1024 .bf16)
    (r3 r4 : FVec Ideal S1x256 .f32) (r5 r6 : FVec Ideal S1x1024 .f32)
    (b : Fin 8) (s : Fin 4096) (p d : Fin 1024)
    (hX : ∀ k : Fin 1024, X (ix3 (0 : Fin 1) p k) = A0 (ix3 b s k))
    (hW1 : ∀ (k : Fin 1024) (h : Fin 256), W1 (ix2 k h) = A4 (ix2 k h))
    (hW2 : ∀ (h : Fin 256) (k : Fin 1024), W2 (ix2 h k) = A5 (ix2 h k))
    (hr3 : ∀ h : Fin 256, r3 (ix2 (0 : Fin 1) h) = B0 (ix2 b h)) (hr4 : ∀ h : Fin 256, r4 (ix2 (0 : Fin 1) h) = B1 (ix2 b h))
    (hr5 : ∀ k : Fin 1024, r5 (ix2 (0 : Fin 1) k) = B2 (ix2 b k)) (hr6 : ∀ k : Fin 1024, r6 (ix2 (0 : Fin 1) k) = B3 (ix2 b k)) :
    k0_pay1 (F := Ideal) (k0_pay2 X) (k0_pay4 X W1 r3 r4 W2) (k0_pay5 X W1 r3 r4) r5 r6 (ix3 (0 : Fin 1) p d)
      = entry A0 A4 A5 B0 B1 B2 B3 b s d := by
  rw [tile_entry]
  simp only [hX, hW1, hW2, hr3, hr4, hr5, hr6]
  obtain ⟨a0, rfl⟩ := h0
  obtain ⟨a4, rfl⟩ := h4
  obtain ⟨a5, rfl⟩ := h5
  obtain ⟨b0, rfl⟩ := g0
  obtain ⟨b1, rfl⟩ := g1
  obtain ⟨b2, rfl⟩ := g2
  obtain ⟨b3, rfl⟩ := g3
  exact kerEntry_eq_refEntry (D := Fin 1024) (H := Fin 256) (fun k => a0 (ix3 b s k)) (fun k h => a4 (ix2 k h))
    (fun h => b0 (ix2 b h)) (fun h => b1 (ix2 b h)) (fun h => a5 (ix2 h d)) (b2 (ix2 b d)) (b3 (ix2 b d)) _

end Cert.KernelIdeal.Pay

end
-- ==== Proof.Finite.lean ====
/-
  What the precondition gives: it is the conjunction, over the eight inputs, of "every entry's absolute value is below
  +∞". An extended real whose absolute value `max x (-x)` is below `⊤` is neither `⊤` nor `⊥`, so it is a real number;
  hence under the precondition every input array is an array of real numbers.
-/
import proofs.«150275_j43611097924302_2_alg».proof.Pre_finite_inputs
import Idealize.ShloMosaic.Lib.ReduceAll
import Idealize.ShloMosaic.PureOps.Ideal.Laws
import proofs.«150275_j43611097924302_2_alg».proof.Proof.Spec

noncomputable section

namespace Cert.Pre_finite_inputs.Finite

open Idealize.ShloMosaic Cert.Pre_finite_inputs Cert.Spec

/-- The scalar shape has one index. -/
instance : Subsingleton S_.Idx := ⟨fun a b => funext fun d => d.elim0⟩

/-- The word `0x7F800000` is `+∞`. -/
theorem inf_word : Ideal.ofBits .f32 0x7F800000#32 = (⊤ : EReal) := by
  simp [Ideal.ofBits, Ideal.ieee]

/-- An extended real whose absolute value compares below `+∞` is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | top => simp [Ideal.cmp] at h
  | coe r => exact ⟨r, rfl⟩

/-- One conjunct of the precondition: `jnp.all (|x| < inf)` being true makes `x` an array of real numbers. -/
theorem isReal_of_all {S : Shape} {axes : List (Fin S.rank)} (x : FVec Ideal S .f32)
    (bc : S_.BroadcastsInDim S (![] : Fin 0 → Fin S.rank)) (h : S.ReducesTo axes S_) (hu : 0 < S_.numel)
    (init : IVec S_ 1) (j : S_.Idx)
    (e : Host.reduce IntOp.andi (cmpf .olt (Host.absf x) (broadcastInDim S ![] bc (constant S_ .f32 0x7F800000#32)))
      init h hu j = 1#1) : IsReal (S := S) x := by
  have hall : ∀ i, ∃ r : ℝ, x i = (r : EReal) := fun i =>
    real_of_abs_lt (x i) (Host.reduce_andi_all _ init h hu j e i)
  choose r hr using hall
  exact ⟨r, funext hr⟩

variable [Facts]

/-- Under the precondition all eight inputs are arrays of real numbers. -/
theorem reals_of_pre (a0 : FVec Ideal S8x4096x1024 .f32) (a1 : FVec Ideal S8x512 .f32) (a2 : FVec Ideal S1024x256 .f32)
    (a3 a4 : FVec Ideal S512x256 .f32) (a5 : FVec Ideal S256x1024 .f32) (a6 a7 : FVec Ideal S512x1024 .f32)
    (h : fn (F := Ideal) a0 a1 a2 a3 a4 a5 a6 a7 = fun _ => 1#1) :
    IsReal (S := S8x4096x1024) a0 ∧ IsReal (S := S8x512) a1 ∧ IsReal (S := S1024x256) a2 ∧ IsReal (S := S512x256) a3
      ∧ IsReal (S := S512x256) a4 ∧ IsReal (S := S256x1024) a5 ∧ IsReal (S := S512x1024) a6 ∧ IsReal (S := S512x1024) a7 := by
  have h0 : fn (F := Ideal) a0 a1 a2 a3 a4 a5 a6 a7 ValueIdx.ix0 = 1#1 := congrFun h _
  dsimp only [fn, fn_part1, fn_part2, andi] at h0
  simp only [IntOp.andi_eq_one] at h0
  obtain ⟨⟨⟨⟨⟨⟨⟨e0, e1⟩, e2⟩, e3⟩, e4⟩, e5⟩, e6⟩, e7⟩ := h0
  exact ⟨isReal_of_all a0 _ _ _ _ _ e0, isReal_of_all a1 _ _ _ _ _ e1, isReal_of_all a2 _ _ _ _ _ e2,
    isReal_of_all a3 _ _ _ _ _ e3, isReal_of_all a4 _ _ _ _ _ e4, isReal_of_all a5 _ _ _ _ _ e5,
    isReal_of_all a6 _ _ _ _ _ e6, isReal_of_all a7 _ _ _ _ _ e7⟩

end Cert.Pre_finite_inputs.Finite

end
-- ==== Proof.KernelBlocks.lean ====
/-
  From the body's tile to the result array.

  The grid has 8 × 4 points; point `t` = (example `b`, row block `sb`) stages rows `1024·sb … 1024·sb + 1023` of example
  `b` of the hidden states, the two shared weights and the four coefficient arrays whole, and writes back the same
  rows of example `b` of the result. The body loads row `b` of each coefficient array. So the tile written back at
  point `t` is the block of `Spec.adapter` of the arrays as the region finds them, the 32 blocks tile the result
  array, and the array ends holding the adapter of the arguments — the coefficient arrays being the four host
  products of the conditions computed before the call, the shared weights the arguments under a change of format.
-/
import proofs.«150275_j43611097924302_2_alg».proof.Proof.Gen.KernelIdeal.Value
import proofs.«150275_j43611097924302_2_alg».proof.Proof.KernelTile
import proofs.«150275_j43611097924302_2_alg».proof.Proof.Finite
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.Spec

/-! ## What the body leaves in the output's staging buffer -/

section Piece
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The body's one store covers the output tile; its payload is computed from the whole hidden-state tile, the whole
    weights, and one row of each coefficient array, the row the example's number selects. -/
theorem out_A (c : Dev nD) (i : grid0.Coords) (arg2 : Memref sig .tc .vmem S1x1024x1024 .f32) (harg2 : arg2.IsWhole) (arg3 : Memref sig .tc .vmem S1024x256 .bf16) (harg3 : arg3.IsWhole) (arg4 : Memref sig .tc .vmem S256x1024 .bf16) (harg4 : arg4.IsWhole) (arg5 : Memref sig .tc .vmem S8x256 .f32) (harg5 : arg5.IsWhole) (arg6 : Memref sig .tc .vmem S8x256 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S1x1024x1024 .f32) (harg9 : arg9.IsWhole)
    (x0 : Vec F S1x1024x1024 .f32) (x1 : Vec F S1024x256 .bf16) (x2 : Vec F S256x1024 .bf16) (x3 : Vec F S8x256 .f32) (x4 : Vec F S8x256 .f32) (x5 : Vec F S8x1024 .f32) (x6 : Vec F S8x1024 .f32) :
    out0_A_7 c i arg2 harg2 arg3 harg3 arg4 harg4 arg5 harg5 arg6 harg6 arg7 harg7 arg8 harg8 arg9 harg9 x0 x1 x2 x3 x4 x5 x6
      = k0_pay1 (k0_pay2 x0)
          (k0_pay4 x0 x1 (View.ld x3 (Rect.unit (s := S8x256) (k0_off1 i) S1x256.size (k0_off1_inb i)))
            (View.ld x4 (Rect.unit (s := S8x256) (k0_off1 i) S1x256.size (k0_off1_inb i))) x2)
          (k0_pay5 x0 x1 (View.ld x3 (Rect.unit (s := S8x256) (k0_off1 i) S1x256.size (k0_off1_inb i)))
            (View.ld x4 (Rect.unit (s := S8x256) (k0_off1 i) S1x256.size (k0_off1_inb i))))
          (View.ld x5 (Rect.unit (s := S8x1024) (k0_off2 i) S1x1024.size (k0_off2_inb i)))
          (View.ld x6 (Rect.unit (s := S8x1024) (k0_off2 i) S1x1024.size (k0_off2_inb i))) := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_unit_zero hz3]
  simp only [View.readAt_eq_ld, harg2.read_unread, harg3.read_unread, harg4.read_unread, harg5.read_unread,
    harg6.read_unread, harg7.read_unread, harg8.read_unread, View.ld_unit_zero (S := S1x1024x1024) hz3,
    View.ld_unit_zero (S := S1024x256) hz2, View.ld_unit_zero (S := S256x1024) hz2]

end Piece

/-! ## The arrays as the region finds them -/

variable (m : (ℓ : Loc nD τ sig) → Buf (Elt Ideal) ℓ) (ρ : Dev nD → PrngReg)

/-- The hidden states, the shared weights and the four coefficient arrays at region entry, as arrays of extended reals. -/
abbrev A0 (c : Dev nD) : (⟨3, ![8, 4096, 1024]⟩ : Shape).Idx → EReal := V m c main_arg0
abbrev A4 (c : Dev nD) : (⟨2, ![1024, 256]⟩ : Shape).Idx → EReal := V m c main_v4
abbrev A5 (c : Dev nD) : (⟨2, ![256, 1024]⟩ : Shape).Idx → EReal := V m c main_v5
abbrev B0 (c : Dev nD) : (⟨2, ![8, 256]⟩ : Shape).Idx → EReal := V m c main_v0
abbrev B1 (c : Dev nD) : (⟨2, ![8, 256]⟩ : Shape).Idx → EReal := V m c main_v1
abbrev B2 (c : Dev nD) : (⟨2, ![8, 1024]⟩ : Shape).Idx → EReal := V m c main_v2
abbrev B3 (c : Dev nD) : (⟨2, ![8, 1024]⟩ : Shape).Idx → EReal := V m c main_v3

theorem A4_eq (c : Dev nD) : A4 m c = (m ((c : Thread nD τ).loc main_arg2) : S1024x256.Idx → EReal) := by
  dsimp only [A4, Gen.V, Gen.hostOps0]; after_results; rfl
theorem A5_eq (c : Dev nD) : A5 m c = (m ((c : Thread nD τ).loc main_arg5) : S256x1024.Idx → EReal) := by
  dsimp only [A5, Gen.V, Gen.hostOps0]; after_results; rfl
theorem B0_eq (c : Dev nD) : B0 m c = Host.dotGeneral (F := Ideal) (φ₁ := .f32) (φ₂ := .f32) dot_S8x512_S512x256_S8x256_1_0_0_1_n_n none
    (m ((c : Thread nD τ).loc main_arg1)) (m ((c : Thread nD τ).loc main_arg3)) := by
  dsimp only [B0, Gen.V, Gen.hostOps0]; after_results; try rfl
theorem B1_eq (c : Dev nD) : B1 m c = Host.dotGeneral (F := Ideal) (φ₁ := .f32) (φ₂ := .f32) dot_S8x512_S512x256_S8x256_1_0_0_1_n_n none
    (m ((c : Thread nD τ).loc main_arg1)) (m ((c : Thread nD τ).loc main_arg4)) := by
  dsimp only [B1, Gen.V, Gen.hostOps0]; after_results; try rfl
theorem B2_eq (c : Dev nD) : B2 m c = Host.dotGeneral (F := Ideal) (φ₁ := .f32) (φ₂ := .f32) dot_S8x512_S512x1024_S8x1024_1_0_0_1_n_n none
    (m ((c : Thread nD τ).loc main_arg1)) (m ((c : Thread nD τ).loc main_arg6)) := by
  dsimp only [B2, Gen.V, Gen.hostOps0]; after_results; try rfl
theorem B3_eq (c : Dev nD) : B3 m c = Host.dotGeneral (F := Ideal) (φ₁ := .f32) (φ₂ := .f32) dot_S8x512_S512x1024_S8x1024_1_0_0_1_n_n none
    (m ((c : Thread nD τ).loc main_arg1)) (m ((c : Thread nD τ).loc main_arg7)) := by
  dsimp only [B3, Gen.V, Gen.hostOps0]; after_results; try rfl

/-! ## The index maps over the grid -/

/-- Decided over the 32 points: the input tile moves with the output tile, on its first two axes; the other six
    windows never move; the row the body loads of the coefficient arrays is the output tile's example. -/
theorem idx_facts : ∀ t : Fin cfg0.N,
    win0_0.index t (0 : Fin 3) = win0_7.index t (0 : Fin 3) ∧ win0_0.index t (1 : Fin 3) = win0_7.index t (1 : Fin 3)
    ∧ win0_0.index t (2 : Fin 3) = 0 ∧ win0_7.index t (2 : Fin 3) = 0
    ∧ win0_7.index t (0 : Fin 3) < 8 ∧ win0_7.index t (1 : Fin 3) < 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ k0_off1 (grid0.coords t) (0 : Fin 2) = win0_7.index t (0 : Fin 3) ∧ k0_off1 (grid0.coords t) (1 : Fin 2) = 0
    ∧ k0_off2 (grid0.coords t) (0 : Fin 2) = win0_7.index t (0 : Fin 3) ∧ k0_off2 (grid0.coords t) (1 : Fin 2) = 0 :=
  (by decide +kernel : ∀ t : Fin grid0.N, _)

/-- Every (example, row block) pair is some point's output tile. -/
theorem idx_onto : ∀ (q0 : Fin 8) (q1 : Fin 4), ∃ t : Fin cfg0.N,
    win0_7.index t (0 : Fin 3) = q0.val ∧ win0_7.index t (1 : Fin 3) = q1.val :=
  (by decide +kernel : ∀ (q0 : Fin 8) (q1 : Fin 4), ∃ t : Fin grid0.N,
    win0_7.index t (0 : Fin 3) = q0.val ∧ win0_7.index t (1 : Fin 3) = q1.val)

/-- The example and the row of the hidden states that entry `(0, p, ·)` of point `t`'s tile belongs to. -/
def bOf (t : Fin cfg0.N) : Fin 8 := ⟨win0_7.index t (0 : Fin 3), (idx_facts t).2.2.2.2.1⟩
def sOf (t : Fin cfg0.N) (p : Fin 1024) : Fin 4096 :=
  ⟨win0_7.index t (1 : Fin 3) * 1024 + p.val, by have := (idx_facts t).2.2.2.2.2.1; have := p.isLt; omega⟩

/-! ## The staged blocks, read -/

theorem blk0_apply (c : Dev nD) (t : Fin cfg0.N) (p k : Fin 1024) :
    (iblk m c 0 t : FVec Ideal S1x1024x1024 .f32) (ix3 (0 : Fin 1) p k) = A0 m c (ix3 (bOf t) (sOf t p) k) := by
  show V m c main_arg0 (((cfg0.win 0).blk t).view.emb (ix3 (0 : Fin 1) p k)) = V m c main_arg0 _
  refine congrArg _ (funext fun a => Fin.ext ?_)
  obtain ⟨e0, e1, e2, -⟩ := idx_facts t
  match a with
  | ⟨0, _⟩ => show win0_0.index t (0 : Fin 3) * 1 + 1 * 0 = win0_7.index t (0 : Fin 3); omega
  | ⟨1, _⟩ => show win0_0.index t (1 : Fin 3) * 1024 + 1 * p.val = win0_7.index t (1 : Fin 3) * 1024 + p.val; omega
  | ⟨2, _⟩ => show win0_0.index t (2 : Fin 3) * 1024 + 1 * k.val = k.val; omega

theorem blk1_apply (c : Dev nD) (t : Fin cfg0.N) (k : Fin 1024) (h : Fin 256) :
    (iblk m c 1 t : FVec Ideal S1024x256 .bf16) (ix2 k h) = A4 m c (ix2 k h) := by
  show V m c main_v4 (((cfg0.win 1).blk t).view.emb (ix2 k h)) = V m c main_v4 _
  refine congrArg _ (funext fun a => Fin.ext ?_)
  obtain ⟨-, -, -, -, -, -, e0, e1, -⟩ := idx_facts t
  match a with
  | ⟨0, _⟩ => show win0_1.index t (0 : Fin 2) * 1024 + 1 * k.val = k.val; omega
  | ⟨1, _⟩ => show win0_1.index t (1 : Fin 2) * 256 + 1 * h.val = h.val; omega

theorem blk2_apply (c : Dev nD) (t : Fin cfg0.N) (h : Fin 256) (k : Fin 1024) :
    (iblk m c 2 t : FVec Ideal S256x1024 .bf16) (ix2 h k) = A5 m c (ix2 h k) := by
  show V m c main_v5 (((cfg0.win 2).blk t).view.emb (ix2 h k)) = V m c main_v5 _
  refine congrArg _ (funext fun a => Fin.ext ?_)
  obtain ⟨-, -, -, -, -, -, -, -, e0, e1, -⟩ := idx_facts t
  match a with
  | ⟨0, _⟩ => show win0_2.index t (0 : Fin 2) * 256 + 1 * h.val = h.val; omega
  | ⟨1, _⟩ => show win0_2.index t (1 : Fin 2) * 1024 + 1 * k.val = k.val; omega

/-! ## The coefficient rows the body loads -/

theorem row3_apply (c : Dev nD) (t : Fin cfg0.N) (h : Fin 256) :
    (View.ld (iblk m c 3 t) (Rect.unit (s := S8x256) (k0_off1 (grid0.coords t)) S1x256.size (k0_off1_inb (grid0.coords t)))
        : FVec Ideal S1x256 .f32) (ix2 (0 : Fin 1) h) = B0 m c (ix2 (bOf t) h) := by
  show V m c main_v0 (((cfg0.win 3).blk t).view.emb
      ((Rect.unit (s := S8x256) (k0_off1 (grid0.coords t)) S1x256.size (k0_off1_inb (grid0.coords t))).emb (ix2 (0 : Fin 1) h)))
    = V m c main_v0 _
  refine congrArg _ (funext fun a => Fin.ext ?_)
  obtain ⟨-, -, -, -, -, -, -, -, -, -, e30, e31, e40, e41, e50, e51, e60, e61, o10, o11, o20, o21⟩ := idx_facts t
  match a with
  | ⟨0, _⟩ => show win0_3.index t (0 : Fin 2) * 8 + 1 * (k0_off1 (grid0.coords t) (0 : Fin 2) + 1 * 0) = win0_7.index t (0 : Fin 3); omega
  | ⟨1, _⟩ => show win0_3.index t (1 : Fin 2) * 256 + 1 * (k0_off1 (grid0.coords t) (1 : Fin 2) + 1 * h.val) = h.val; omega

theorem row4_apply (c : Dev nD) (t : Fin cfg0.N) (h : Fin 256) :
    (View.ld (iblk m c 4 t) (Rect.unit (s := S8x256) (k0_off1 (grid0.coords t)) S1x256.size (k0_off1_inb (grid0.coords t)))
        : FVec Ideal S1x256 .f32) (ix2 (0 : Fin 1) h) = B1 m c (ix2 (bOf t) h) := by
  show V m c main_v1 (((cfg0.win 4).blk t).view.emb
      ((Rect.unit (s := S8x256) (k0_off1 (grid0.coords t)) S1x256.size (k0_off1_inb (grid0.coords t))).emb (ix2 (0 : Fin 1) h)))
    = V m c main_v1 _
  refine congrArg _ (funext fun a => Fin.ext ?_)
  obtain ⟨-, -, -, -, -, -, -, -, -, -, e30, e31, e40, e41, e50, e51, e60, e61, o10, o11, o20, o21⟩ := idx_facts t
  match a with
  | ⟨0, _⟩ => show win0_4.index t (0 : Fin 2) * 8 + 1 * (k0_off1 (grid0.coords t) (0 : Fin 2) + 1 * 0) = win0_7.index t (0 : Fin 3); omega
  | ⟨1, _⟩ => show win0_4.index t (1 : Fin 2) * 256 + 1 * (k0_off1 (grid0.coords t) (1 : Fin 2) + 1 * h.val) = h.val; omega

theorem row5_apply (c : Dev nD) (t : Fin cfg0.N) (h : Fin 1024) :
    (View.ld (iblk m c 5 t) (Rect.unit (s := S8x1024) (k0_off2 (grid0.coords t)) S1x1024.size (k0_off2_inb (grid0.coords t)))
        : FVec Ideal S1x1024 .f32) (ix2 (0 : Fin 1) h) = B2 m c (ix2 (bOf t) h) := by
  show V m c main_v2 (((cfg0.win 5).blk t).view.emb
      ((Rect.unit (s := S8x1024) (k0_off2 (grid0.coords t)) S1x1024.size (k0_off2_inb (grid0.coords t))).emb (ix2 (0 : Fin 1) h)))
    = V m c main_v2 _
  refine congrArg _ (funext fun a => Fin.ext ?_)
  obtain ⟨-, -, -, -, -, -, -, -, -, -, e30, e31, e40, e41, e50, e51, e60, e61, o10, o11, o20, o21⟩ := idx_facts t
  match a with
  | ⟨0, _⟩ => show win0_5.index t (0 : Fin 2) * 8 + 1 * (k0_off2 (grid0.coords t) (0 : Fin 2) + 1 * 0) = win0_7.index t (0 : Fin 3); omega
  | ⟨1, _⟩ => show win0_5.index t (1 : Fin 2) * 1024 + 1 * (k0_off2 (grid0.coords t) (1 : Fin 2) + 1 * h.val) = h.val; omega

theorem row6_apply (c : Dev nD) (t : Fin cfg0.N) (h : Fin 1024) :
    (View.ld (iblk m c 6 t) (Rect.unit (s := S8x1024) (k0_off2 (grid0.coords t)) S1x1024.size (k0_off2_inb (grid0.coords t)))
        : FVec Ideal S1x1024 .f32) (ix2 (0 : Fin 1) h) = B3 m c (ix2 (bOf t) h) := by
  show V m c main_v3 (((cfg0.win 6).blk t).view.emb
      ((Rect.unit (s := S8x1024) (k0_off2 (grid0.coords t)) S1x1024.size (k0_off2_inb (grid0.coords t))).emb (ix2 (0 : Fin 1) h)))
    = V m c main_v3 _
  refine congrArg _ (funext fun a => Fin.ext ?_)
  obtain ⟨-, -, -, -, -, -, -, -, -, -, e30, e31, e40, e41, e50, e51, e60, e61, o10, o11, o20, o21⟩ := idx_facts t
  match a with
  | ⟨0, _⟩ => show win0_6.index t (0 : Fin 2) * 8 + 1 * (k0_off2 (grid0.coords t) (0 : Fin 2) + 1 * 0) = win0_7.index t (0 : Fin 3); omega
  | ⟨1, _⟩ => show win0_6.index t (1 : Fin 2) * 1024 + 1 * (k0_off2 (grid0.coords t) (1 : Fin 2) + 1 * h.val) = h.val; omega

/-! ## What each point writes back, and the array after the run -/

/-- The adapter of the arrays as the region finds them. -/
abbrev result (c : Dev nD) : (⟨3, ![8, 4096, 1024]⟩ : Shape).Idx → EReal :=
  adapter (A0 m c) (A4 m c) (A5 m c) (B0 m c) (B1 m c) (B2 m c) (B3 m c)

/-- Where entry `(0, p, d)` of point `t`'s tile sits in the result array. -/
theorem emb7 (t : Fin cfg0.N) (p d : Fin 1024) :
    ((cfg0.win 7).blk t).view.emb (ix3 (0 : Fin 1) p d) = ix3 (bOf t) (sOf t p) d := by
  refine funext fun a => Fin.ext ?_
  obtain ⟨-, -, -, e2, -⟩ := idx_facts t
  match a with
  | ⟨0, _⟩ => show win0_7.index t (0 : Fin 3) * 1 + 1 * 0 = win0_7.index t (0 : Fin 3); omega
  | ⟨1, _⟩ => show win0_7.index t (1 : Fin 3) * 1024 + 1 * p.val = win0_7.index t (1 : Fin 3) * 1024 + p.val; omega
  | ⟨2, _⟩ => show win0_7.index t (2 : Fin 3) * 1024 + 1 * d.val = d.val; omega

/-- WHAT POINT `t` WRITES BACK is block `t` of the adapter, when the arrays the region finds hold real numbers. -/
theorem flushed_eq (c : Dev nD) (h0 : IsReal (S := ⟨3, ![8, 4096, 1024]⟩) (A0 m c)) (h4 : IsReal (S := ⟨2, ![1024, 256]⟩) (A4 m c))
    (h5 : IsReal (S := ⟨2, ![256, 1024]⟩) (A5 m c)) (g0 : IsReal (S := ⟨2, ![8, 256]⟩) (B0 m c))
    (g1 : IsReal (S := ⟨2, ![8, 256]⟩) (B1 m c)) (g2 : IsReal (S := ⟨2, ![8, 1024]⟩) (B2 m c))
    (g3 : IsReal (S := ⟨2, ![8, 1024]⟩) (B3 m c)) (t : Fin cfg0.N) :
    (dats m 0 c).flushed 7 t = ((cfg0.win 7).blk t).view.read (Elt Ideal) (result m c) := by
  rw [Cert.KernelIdeal.Value.flushed7]
  unfold outsAt0
  rw [out_A]
  funext j
  obtain ⟨u, p, d, rfl⟩ : ∃ (u : Fin 1) (p d : Fin 1024), j = ix3 u p d := ⟨j 0, j 1, j 2, eq_ix3 j⟩
  obtain rfl : u = 0 := Subsingleton.elim _ _
  refine Eq.trans (b := entry (A0 m c) (A4 m c) (A5 m c) (B0 m c) (B1 m c) (B2 m c) (B3 m c) (bOf t) (sOf t p) d) ?_ ?_
  · exact Cert.KernelIdeal.Pay.tile_is_adapter (A0 m c) (A4 m c) (A5 m c) (B0 m c) (B1 m c) (B2 m c) (B3 m c)
      h0 h4 h5 g0 g1 g2 g3 _ _ _ _ _ _ _ (bOf t) (sOf t p) p d
      (fun k => blk0_apply m c t p k) (fun k h => blk1_apply m c t k h) (fun h k => blk2_apply m c t h k)
      (fun h => row3_apply m c t h) (fun h => row4_apply m c t h) (fun k => row5_apply m c t k) (fun k => row6_apply m c t k)
  · show _ = result m c (((cfg0.win 7).blk t).view.emb (ix3 (0 : Fin 1) p d))
    rw [emb7]
    exact (adapter_apply _ _ _ _ _ _ _ _ _ _).symm

/-- An index of the result array is in point `t`'s block iff each coordinate is in the block's range on its axis. -/
theorem mem_blk (t : Fin cfg0.N) (i : S8x4096x1024.Idx) :
    i ∈ ((cfg0.win 7).blk t).view.set ↔ ∀ a : Fin 3, win0_7.index t a * S1x1024x1024.size a ≤ (i a).val
      ∧ (i a).val < win0_7.index t a * S1x1024x1024.size a + S1x1024x1024.size a := by
  show i ∈ ((View.whole main_v6).slice (win0_7.rect t)).set ↔ _
  rw [View.set_slice_whole, Rect.mem_set_unit]
  exact Iff.rfl

/-- The 32 tiles cover the result array: entry `(b, s, d)` is in the tile of example `b`, row block `s / 1024`. -/
theorem cover (i : S8x4096x1024.Idx) :
    ∃ t : Fin cfg0.N, (cfg0.win 7).flush t = true ∧ i ∈ ((cfg0.win 7).blk t).view.set := by
  have hi0 : (i 0).val < 8 := (i 0).isLt
  have hi1 : (i 1).val < 4096 := (i 1).isLt
  have hi2 : (i 2).val < 1024 := (i 2).isLt
  obtain ⟨t, q0, q1⟩ := idx_onto ⟨(i 0).val, hi0⟩ ⟨(i 1).val / 1024, by omega⟩
  have q0' : win0_7.index t (0 : Fin 3) = (i 0).val := q0
  have q1' : win0_7.index t (1 : Fin 3) = (i 1).val / 1024 := q1
  obtain ⟨-, -, -, e2, -⟩ := idx_facts t
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 1024 ≤ (i 2).val ∧ (i 2).val < win0_7.index t (2 : Fin 3) * 1024 + 1024; omega

/-- THE ARRAY after the run is the adapter of the arrays as the region finds them. -/
theorem final (c : Dev nD) (h0 : IsReal (S := ⟨3, ![8, 4096, 1024]⟩) (A0 m c)) (h4 : IsReal (S := ⟨2, ![1024, 256]⟩) (A4 m c))
    (h5 : IsReal (S := ⟨2, ![256, 1024]⟩) (A5 m c)) (g0 : IsReal (S := ⟨2, ![8, 256]⟩) (B0 m c))
    (g1 : IsReal (S := ⟨2, ![8, 256]⟩) (B1 m c)) (g2 : IsReal (S := ⟨2, ![8, 1024]⟩) (B2 m c))
    (g3 : IsReal (S := ⟨2, ![8, 1024]⟩) (B3 m c)) :
    (dats m 0 c).arrAt 7 cfg0.N = result m c :=
  (dats m 0 c).arrAt_eq_of_cover 7 (result m c) (fun t _ => flushed_eq m c h0 h4 h5 g0 g1 g2 g3 t) cover

end Cert.KernelIdeal.Hand

end
-- ==== Proof.KernelRun.lean ====
/-
  The kernel program's run, read: under the precondition every input is an array of real numbers, so are the four
  coefficient products (a finite sum of products of real numbers is a real number), and the result array ends holding
  the adapter of the hidden states, the two shared weights and the four coefficient products.
-/
import proofs.«150275_j43611097924302_2_alg».proof.Defs
import proofs.«150275_j43611097924302_2_alg».proof.Proof.KernelBlocks

noncomputable section

open Idealize.ShloMosaic Idealize.ShloMosaic.TcCoe Idealize.SL.Sem

namespace Cert.KernelIdeal.Hand

open Cert.KernelIdeal Cert.KernelIdeal.Gen Idealize.ShloMosaic.ValueIdx Cert.Spec

/-- The host's product of two arrays of real numbers is an array of real numbers. -/
theorem isReal_dotGeneral {sl sr so : Shape} (d : DotDims sl sr so) (prec : Option ContractPrecision)
    (l : FVec Ideal sl .f32) (r : FVec Ideal sr .f32) (hl : IsReal (S := sl) l) (hr : IsReal (S := sr) r) :
    IsReal (S := so) (Host.dotGeneral (F := Ideal) d prec l r) := by
  obtain ⟨l', rfl⟩ := hl
  obtain ⟨r', rfl⟩ := hr
  refine ⟨fun j => ∑ k : d.contr.Idx, l' (d.lhsIdx j k) * r' (d.rhsIdx j k), funext fun j => ?_⟩
  simp only [Host.dotGeneral]
  rw [Ideal.dotGeneral_apply, Cert.RealLaws.coe_sum]
  simp only [EReal.coe_mul]

variable [hPre : Cert.Pre_finite_inputs.Facts]
variable (m : (ℓ : Loc nD τ sig) → Buf (Elt Ideal) ℓ) (ρ : Dev nD → PrngReg)

/-- The result of the kernel program as a function of its arguments. -/
abbrev resultOfArgs (c : Dev nD) : (⟨3, ![8, 4096, 1024]⟩ : Shape).Idx → EReal :=
  adapter (m ((c : Thread nD τ).loc main_arg0)) (m ((c : Thread nD τ).loc main_arg2)) (m ((c : Thread nD τ).loc main_arg5))
    (Host.dotGeneral (F := Ideal) (φ₁ := .f32) (φ₂ := .f32) dot_S8x512_S512x256_S8x256_1_0_0_1_n_n none
      (m ((c : Thread nD τ).loc main_arg1)) (m ((c : Thread nD τ).loc main_arg3)))
    (Host.dotGeneral (F := Ideal) (φ₁ := .f32) (φ₂ := .f32) dot_S8x512_S512x256_S8x256_1_0_0_1_n_n none
      (m ((c : Thread nD τ).loc main_arg1)) (m ((c : Thread nD τ).loc main_arg4)))
    (Host.dotGeneral (F := Ideal) (φ₁ := .f32) (φ₂ := .f32) dot_S8x512_S512x1024_S8x1024_1_0_0_1_n_n none
      (m ((c : Thread nD τ).loc main_arg1)) (m ((c : Thread nD τ).loc main_arg6)))
    (Host.dotGeneral (F := Ideal) (φ₁ := .f32) (φ₂ := .f32) dot_S8x512_S512x1024_S8x1024_1_0_0_1_n_n none
      (m ((c : Thread nD τ).loc main_arg1)) (m ((c : Thread nD τ).loc main_arg7)))

/-- Under the precondition the result array ends at `resultOfArgs`. -/
theorem final_of_pre (hpre : Cert.Pre_KernelIdeal m) (c : Dev nD) : (dats m 0 c).arrAt 7 cfg0.N = resultOfArgs m c := by
  obtain ⟨r0, r1, r2, r3, r4, r5, r6, r7⟩ := Cert.Pre_finite_inputs.Finite.reals_of_pre _ _ _ _ _ _ _ _ (hpre c)
  have e0 : A0 m c = m ((c : Thread nD τ).loc main_arg0) := V_main_arg0 m c
  have h0 : IsReal (S := ⟨3, ![8, 4096, 1024]⟩) (A0 m c) := by rw [e0]; exact r0
  have h4 : IsReal (S := ⟨2, ![1024, 256]⟩) (A4 m c) := by rw [A4_eq]; exact r2
  have h5 : IsReal (S := ⟨2, ![256, 1024]⟩) (A5 m c) := by rw [A5_eq]; exact r5
  have g0 : IsReal (S := ⟨2, ![8, 256]⟩) (B0 m c) := by rw [B0_eq]; exact isReal_dotGeneral _ _ _ _ r1 r3
  have g1 : IsReal (S := ⟨2, ![8, 256]⟩) (B1 m c) := by rw [B1_eq]; exact isReal_dotGeneral _ _ _ _ r1 r4
  have g2 : IsReal (S := ⟨2, ![8, 1024]⟩) (B2 m c) := by rw [B2_eq]; exact isReal_dotGeneral _ _ _ _ r1 r6
  have g3 : IsReal (S := ⟨2, ![8, 1024]⟩) (B3 m c) := by rw [B3_eq]; exact isReal_dotGeneral _ _ _ _ r1 r7
  rw [final m c h0 h4 h5 g0 g1 g2 g3]
  show adapter (A0 m c) (A4 m c) (A5 m c) (B0 m c) (B1 m c) (B2 m c) (B3 m c) = _
  rw [e0, A4_eq, A5_eq, B0_eq, B1_eq, B2_eq, B3_eq]

/-- The kernel program's run with its result named as a function of the arguments, the arguments unchanged. -/
theorem run (hpre : Cert.Pre_KernelIdeal m) :
    θ_run defs (onTc (τ := τ) (main (F := Ideal))) ⟨m, fun _ => 0, ρ⟩ fun r => ∀ c : Dev nD,
      r.2.mem ((c : Thread nD τ).loc main_v6) = resultOfArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_of_pre m hpre c), (h c).2⟩)
    (Cert.KernelIdeal.Value.run_blocks m ρ)

end Cert.KernelIdeal.Hand

end
-- ==== Proof.RefSide.lean ====
/-
  The reference computes the adapter: its last stage, read entry by entry through the broadcasts and the two batched
  products, is `Spec.adapter` of the hidden states, the two shared weights and the four coefficient products.
-/
import proofs.«150275_j43611097924302_2_alg».proof.Proof.Gen.ReferenceIdeal.Read
import proofs.«150275_j43611097924302_2_alg».proof.Proof.Spec

noncomputable section

namespace Cert.ReferenceIdeal.RefValue

open Cert.ReferenceIdeal Cert.ReferenceIdeal.Read Idealize.ShloMosaic Idealize.ShloMosaic.ValueIdx

/-! The composed index maps of the broadcasts and products, at coordinates. -/

theorem l22 (b : Fin 8) (s : Fin 4096) (d : Fin 1024) (h : Fin 256) : lidx_main_v22 (ix3 b s d) h = ix3 b s h :=
  funext fun a => by match a with | ⟨0, _⟩ => rfl | ⟨1, _⟩ => rfl | ⟨2, _⟩ => rfl
theorem r22 (b : Fin 8) (s : Fin 4096) (d : Fin 1024) (h : Fin 256) : ridx_main_v22 (ix3 b s d) h = ix3 b h d :=
  funext fun a => by match a with | ⟨0, _⟩ => rfl | ⟨1, _⟩ => rfl | ⟨2, _⟩ => rfl
theorem l12 (b : Fin 8) (s : Fin 4096) (h : Fin 256) (k : Fin 1024) : lidx_main_v12 (ix3 b s h) k = ix3 b s k :=
  funext fun a => by match a with | ⟨0, _⟩ => rfl | ⟨1, _⟩ => rfl | ⟨2, _⟩ => rfl
theorem r12 (b : Fin 8) (s : Fin 4096) (h : Fin 256) (k : Fin 1024) : ridx_main_v12 (ix3 b s h) k = ix3 b k h :=
  funext fun a => by match a with | ⟨0, _⟩ => rfl | ⟨1, _⟩ => rfl | ⟨2, _⟩ => rfl
theorem i6 (b : Fin 8) (k : Fin 1024) (h : Fin 256) : idx_main_v4 (idx_main_v6 (ix3 b k h)) = ix2 k h :=
  funext fun a => by match a with | ⟨0, _⟩ => rfl | ⟨1, _⟩ => rfl
theorem i7 (b : Fin 8) (k : Fin 1024) (h : Fin 256) : idx_main_v5 (idx_main_v7 (ix3 b k h)) = ix2 b h :=
  funext fun a => by match a with | ⟨0, _⟩ => rfl | ⟨1, _⟩ => rfl
theorem i10 (b : Fin 8) (k : Fin 1024) (h : Fin 256) : idx_main_v9 (idx_main_v10 (ix3 b k h)) = ix2 b h :=
  funext fun a => by match a with | ⟨0, _⟩ => rfl | ⟨1, _⟩ => rfl
theorem i16 (b : Fin 8) (h : Fin 256) (d : Fin 1024) : idx_main_v14 (idx_main_v16 (ix3 b h d)) = ix2 h d :=
  funext fun a => by match a with | ⟨0, _⟩ => rfl | ⟨1, _⟩ => rfl
theorem i17 (b : Fin 8) (h : Fin 256) (d : Fin 1024) : idx_main_v15 (idx_main_v17 (ix3 b h d)) = ix2 b d :=
  funext fun a => by match a with | ⟨0, _⟩ => rfl | ⟨1, _⟩ => rfl
theorem i20 (b : Fin 8) (h : Fin 256) (d : Fin 1024) : idx_main_v19 (idx_main_v20 (ix3 b h d)) = ix2 b d :=
  funext fun a => by match a with | ⟨0, _⟩ => rfl | ⟨1, _⟩ => rfl

/-- The reference's result is the adapter of its arguments, the coefficient arrays being its first four products. -/
theorem result_eq (x0 : (⟨S8x4096x1024, .f32⟩ : BufTy).Contents (Elt Ideal)) (x1 : (⟨S8x512, .f32⟩ : BufTy).Contents (Elt Ideal))
    (x2 : (⟨S1024x256, .f32⟩ : BufTy).Contents (Elt Ideal)) (x3 x4 : (⟨S512x256, .f32⟩ : BufTy).Contents (Elt Ideal))
    (x5 : (⟨S256x1024, .f32⟩ : BufTy).Contents (Elt Ideal)) (x6 x7 : (⟨S512x1024, .f32⟩ : BufTy).Contents (Elt Ideal)) :
    val_main_v23 (F := Ideal) x0 x1 x2 x3 x4 x5 x6 x7
      = Cert.Spec.adapter x0 x2 x5 (val_main_v0 (F := Ideal) x1 x3) (val_main_v1 (F := Ideal) x1 x4)
          (val_main_v2 (F := Ideal) x1 x6) (val_main_v3 (F := Ideal) x1 x7) := by
  funext i
  obtain ⟨b, s, d, rfl⟩ : ∃ (b : Fin 8) (s : Fin 4096) (d : Fin 1024), i = ix3 b s d := ⟨i 0, i 1, i 2, eq_ix3 i⟩
  rw [Cert.Spec.adapter_apply, val_main_v23_apply, val_main_v22_apply]
  unfold Cert.Spec.entry Cert.RealLaws.refEntry
  simp only [val_main_v13_apply, val_main_v12_apply, val_main_v11_apply, val_main_v8_apply, val_main_v6_apply,
    val_main_v4_apply, val_main_v7_apply, val_main_v5_apply, val_main_v10_apply, val_main_v9_apply,
    val_main_call0_v0_apply, val_main_call0_cst_apply, val_main_v21_apply, val_main_v18_apply, val_main_v16_apply,
    val_main_v14_apply, val_main_v17_apply, val_main_v15_apply, val_main_v20_apply, val_main_v19_apply,
    l22, r22, l12, r12, i6, i7, i10, i16, i17, i20,
    Ideal.addf_def, Ideal.mulf_def, Ideal.maximumf_def, Ideal.ofBits_def, Ideal.ofBits_zero_f32]

end Cert.ReferenceIdeal.RefValue

end
-- ==== Proof.lean ====
/-
  The conditional adapter kernel against its reference, at the ideal values.

  Both programs compute, for every example `b`, row `s` and column `d`,
    `∑ h, relu (∑ k, x (b, s, k) · (wd (k, h) · dg (b, h) + db (b, h))) · (wu (h, d) · ug (b, d) + ub (b, d)) + x (b, s, d)`
  where `dg`, `db`, `ug`, `ub` are the conditions times the four modulation matrices. The reference forms the
  per-example weights and contracts once; the kernel contracts with the shared weights, feeds each product twice
  (with the operand and with the operand minus itself), and applies scale and shift afterwards to the product and to
  the operand's row sum. On real numbers these agree (`x - x = 0`, and a product distributes over a finite sum); the
  precondition makes every input, hence every coefficient and every activation, a real number.

  * frames of the two kernel programs: the generated frame runs; of the reference: its generated run.
  * preserves: the two removed bf16 round trips, each by its rule's lemma.
  * algebraic: the kernel's result array after its run is the adapter of its arguments (the tile each grid point
    writes back is the adapter's block; the 32 tiles cover the array), the reference's last stage read entry by
    entry is the same adapter, and the memories agree on the arguments.
-/
import proofs.«150275_j43611097924302_2_alg».proof.Defs
import proofs.«150275_j43611097924302_2_alg».proof.Proof.Gen.Kernel
import proofs.«150275_j43611097924302_2_alg».proof.Proof.Gen.Kernel.Skeleton
import proofs.«150275_j43611097924302_2_alg».proof.Proof.Gen.Kernel.Launch
import proofs.«150275_j43611097924302_2_alg».proof.Proof.Gen.Kernel.Points
import proofs.«150275_j43611097924302_2_alg».proof.Proof.Gen.Kernel.Frame
import proofs.«150275_j43611097924302_2_alg».proof.Proof.Gen.KernelIdeal
import proofs.«150275_j43611097924302_2_alg».proof.Proof.Gen.KernelIdeal.Skeleton
import proofs.«150275_j43611097924302_2_alg».proof.Proof.Gen.KernelIdeal.Launch
import proofs.«150275_j43611097924302_2_alg».proof.Proof.Gen.KernelIdeal.Points
import proofs.«150275_j43611097924302_2_alg».proof.Proof.Gen.KernelIdeal.Frame
import proofs.«150275_j43611097924302_2_alg».proof.Proof.Gen.ReferenceIdeal
import proofs.«150275_j43611097924302_2_alg».proof.Proof.Gen.Pre_finite_inputs
import proofs.«150275_j43611097924302_2_alg».proof.Proof.Gen.KernelIdeal.Value
import proofs.«150275_j43611097924302_2_alg».proof.Proof.Gen.ReferenceIdeal.Run
import proofs.«150275_j43611097924302_2_alg».proof.Proof.Gen.ReferenceIdeal.Read
import proofs.«150275_j43611097924302_2_alg».proof.Proof.KernelRun
import proofs.«150275_j43611097924302_2_alg».proof.Proof.RefSide
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two bf16 round trips the idealization removed, each by its rule's lemma. -/
theorem preserves : Cert.preserves_Kernel_KernelIdeal :=
  ⟨IdealRules.truncf_extf.statement _ .f32 .bf16, IdealRules.truncf_extf.statement _ .f32 .bf16⟩

/-- Both runs end with the result at the adapter of the (agreeing) arguments. -/
theorem algebraic : Cert.algebraic_KernelIdeal_ReferenceIdeal := by
  intro m ρ m' ρ' hpre hagree
  refine ⟨fun c => Cert.KernelIdeal.Hand.resultOfArgs m c, Cert.KernelIdeal.Hand.run m ρ hpre, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7, Cert.ReferenceIdeal.Read.val_main_v23_eq, Cert.ReferenceIdeal.RefValue.result_eq]
  rfl

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
